-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S256x128 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 37
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000x128, .f32⟩
  | .hbm, ⟨30, _⟩ => ⟨S_, .f32⟩
  | .hbm, ⟨31, _⟩ => ⟨S100000x128, .f32⟩
  | .hbm, ⟨32, _⟩ => ⟨S1700000x1, .i32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .i1⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel program's run, read at every buffer.

  The program is four segments in a row: a stretch of host operations, the first grid of kernel calls, a second
  stretch of host operations, the second grid of kernel calls. Every weakly fair execution from a memory `m` with
  zero counters terminates without a fault, and in its final state every buffer that is not scoped to a kernel call
  holds the contents `Gen.W4 m ρ c` obtained by folding the four segments over `m`: a host stretch applies its
  operations in order, a grid of kernel calls leaves each of its arrays at what its write-backs leave and every other
  buffer as it was. In particular the result buffer holds the fold's value at the result, and the five argument
  buffers are as launched.
-/
import proofs.«130555_j6313601925376_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with every unscoped buffer at the
    fold `Gen.W4 m ρ c` of the four segments over `m`: the launch theorem for a program that runs as a list of
    segments, at the generated segments; what a core holds between segments is its unscoped buffers at the fold so far,
    its generator register and nothing owed. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by
      -- the two grids are two different pipelines, each entered once
      simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is exactly the pipelines' staging cells and launch tokens; no core needs anything besides
      iintro Hlaunch
      imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      · -- a family of empty resources, one per core, is the empty resource
        iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- core by core: the unscoped buffers at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W4 m ρ c b)
    (hfin := fun c s' => by
      -- a core holding its unscoped buffers at `W4` beside a final state reads those contents off that state
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := fun _ h => h)

/-- The same run read at the result and at the five arguments: the result buffer holds the fold's value there, the
    arguments are as launched. -/
theorem run_value : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
    (run_all m ρ)

end Cert.KernelIdeal.KRun

end
-- ==== Proof.KHost.lean ====
/-
  The kernel program's host operations, read.

  Before the first grid of kernel calls the host builds, from the edge array, the source words `rowW` and destination
  words `colW` of the edges followed by one self loop per node, the in-degree of every node as a sum of ones scattered
  along the destination words (`degV`), and its reciprocal square root as a column (`dinvCol`). Between the two grids it
  gathers, for every edge, the row of the first grid's result at the edge's wrapped source word, and sums these rows
  into the destination nodes (`aggV`); it also lays the bias and the slope out as rows. Each buffer the two grids read
  is identified here with such a term of the launch memory: a host stretch applies its operations in order, a buffer
  no operation of a stretch writes passes through it, and an array a grid only reads is unchanged by that grid.
-/
import proofs.«130555_j6313601925376_2_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Facts₀
open Cert.KernelIdeal.Gen (W0 W1 W2 W3 V1 V3 dat0 A_eq0 W2_arr W2_of_ne hostOps0 hostOps1)
open Idealize.ShloMosaic Idealize.ShloMosaic.TcCoe Idealize.SL.Sem Idealize.ShloMosaic.StableHlo

/-! ## The host's terms of the edge array -/

/-- The source words: row 0 of the edge array, then the node numbers (one self loop per node). -/
def rowW (x1 : (⟨S2x1600000, .i32⟩ : BufTy).Contents (Elt Ideal)) : (⟨S1700000, .i32⟩ : BufTy).Contents (Elt Ideal) :=
  concatenate S1700000 0
    [⟨S1600000, shapeCast _ (extractStridedSlice S1x1600000 ![0, 0] x1 slices_S2x1600000_S1x1600000_0_0) shapeCasts_S1x1600000_S1600000⟩,
      ⟨S100000, iotaInDim S100000 32 0⟩]
    concatenates_S1600000_S100000_S1700000_d0

/-- The destination words: row 1 of the edge array, then the node numbers. -/
def colW (x1 : (⟨S2x1600000, .i32⟩ : BufTy).Contents (Elt Ideal)) : (⟨S1700000, .i32⟩ : BufTy).Contents (Elt Ideal) :=
  concatenate S1700000 0
    [⟨S1600000, shapeCast _ (extractStridedSlice S1x1600000 ![1, 0] x1 slices_S2x1600000_S1x1600000_1_0) shapeCasts_S1x1600000_S1600000⟩,
      ⟨S100000, iotaInDim S100000 32 0⟩]
    concatenates_S1600000_S100000_S1700000_d0

/-- A word array as the `[E, 1]` column of index vectors a gather or a scatter takes. -/
def asColumn (v : (⟨S1700000, .i32⟩ : BufTy).Contents (Elt Ideal)) : (⟨S1700000x1, .i32⟩ : BufTy).Contents (Elt Ideal) :=
  broadcastInDim S1700000x1 ![0] bcast_S1700000_S1700000x1_0 v

/-- A word array wrapped as indices that may count from the end: `w + 100000` where `w` is negative. -/
def wrapped (v : (⟨S1700000, .i32⟩ : BufTy).Contents (Elt Ideal)) : (⟨S1700000, .i32⟩ : BufTy).Contents (Elt Ideal) :=
  select (cmpi .slt v (broadcastInDim S1700000 ![] bcast_S_S1700000 (constantI S_ 32 0#32)))
    (addi v (broadcastInDim S1700000 ![] bcast_S_S1700000 (constantI S_ 32 100000#32))) v

/-- The in-degrees: ones summed along the destination words, from zero. -/
def degV (x1 : (⟨S2x1600000, .i32⟩ : BufTy).Contents (Elt Ideal)) : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (asColumn (colW x1))
    (broadcastInDim S1700000 ![] bcast_S_S1700000 (constant (F := Ideal) S_ .f32 0x3F800000#32))

/-- The reciprocal square roots of the in-degrees, as a column. -/
def dinvCol (x1 : (⟨S2x1600000, .i32⟩ : BufTy).Contents (Elt Ideal)) : (⟨S100000x1, .f32⟩ : BufTy).Contents (Elt Ideal) :=
  shapeCast _ (Host.rsqrt (F := Ideal) (φ := .f32) (degV x1)) shapeCasts_S100000_S100000x1

/-- The aggregation: for every edge the row of `hs` at its wrapped source word, summed along the destination words. -/
def aggV (x1 : (⟨S2x1600000, .i32⟩ : BufTy).Contents (Elt Ideal)) (hs : (⟨S100000x128, .f32⟩ : BufTy).Contents (Elt Ideal)) :
    (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (asColumn (colW x1))
    (Host.gather gather_S100000x128_S1700000x1_S1700000x128_1_0_n_n_0_1_1128 hs (asColumn (wrapped (rowW x1))))

/-- A channel vector laid out as a `[1, 128]` row. -/
def asRow (v : (⟨S128, .f32⟩ : BufTy).Contents (Elt Ideal)) : (⟨S1x128, .f32⟩ : BufTy).Contents (Elt Ideal) :=
  shapeCast _ v shapeCasts_S128_S1x128

/-! ## The buffers at the first grid's entry -/

variable (m : (ℓ : Loc nD τ sig) → Buf (Elt Ideal) ℓ) (ρ : Dev nD → PrngReg) (c : Dev nD)

theorem W1_arg0 : W1 m ρ c (Proc.devRef .tc main_arg0) = m ((c : Thread nD τ).loc main_arg0) := by
  show StableHlo.after hostOps0 (W0 m ρ c) (Proc.devRef .tc main_arg0) = _
  after_results <;> rfl

theorem W1_arg2 : W1 m ρ c (Proc.devRef .tc main_arg2) = m ((c : Thread nD τ).loc main_arg2) := by
  show StableHlo.after hostOps0 (W0 m ρ c) (Proc.devRef .tc main_arg2) = _
  after_results <;> rfl

theorem W1_arg3 : W1 m ρ c (Proc.devRef .tc main_arg3) = m ((c : Thread nD τ).loc main_arg3) := by
  show StableHlo.after hostOps0 (W0 m ρ c) (Proc.devRef .tc main_arg3) = _
  after_results <;> rfl

theorem W1_arg4 : W1 m ρ c (Proc.devRef .tc main_arg4) = m ((c : Thread nD τ).loc main_arg4) := by
  show StableHlo.after hostOps0 (W0 m ρ c) (Proc.devRef .tc main_arg4) = _
  after_results <;> rfl

theorem W1_v3 : W1 m ρ c (Proc.devRef .tc main_v3) = rowW (m ((c : Thread nD τ).loc main_arg1)) := by
  show StableHlo.after hostOps0 (W0 m ρ c) (Proc.devRef .tc main_v3) = _
  after_results <;> rfl

theorem W1_v6 : W1 m ρ c (Proc.devRef .tc main_v6) = colW (m ((c : Thread nD τ).loc main_arg1)) := by
  show StableHlo.after hostOps0 (W0 m ρ c) (Proc.devRef .tc main_v6) = _
  after_results <;> rfl

theorem W1_v12 : W1 m ρ c (Proc.devRef .tc main_v12) = dinvCol (m ((c : Thread nD τ).loc main_arg1)) := by
  show StableHlo.after hostOps0 (W0 m ρ c) (Proc.devRef .tc main_v12) = _
  after_results <;> rfl

/-! ## The buffers at the first grid's exit -/

theorem W2_v3 : W2 m ρ c (Proc.devRef .tc main_v3) = rowW (m ((c : Thread nD τ).loc main_arg1)) :=
  (W2_of_ne m ρ c main_v3 (by decide)).trans (W1_v3 m ρ c)

theorem W2_v6 : W2 m ρ c (Proc.devRef .tc main_v6) = colW (m ((c : Thread nD τ).loc main_arg1)) :=
  (W2_of_ne m ρ c main_v6 (by decide)).trans (W1_v6 m ρ c)

theorem W2_arg3 : W2 m ρ c (Proc.devRef .tc main_arg3) = m ((c : Thread nD τ).loc main_arg3) :=
  (W2_of_ne m ρ c main_arg3 (by decide)).trans (W1_arg3 m ρ c)

theorem W2_arg4 : W2 m ρ c (Proc.devRef .tc main_arg4) = m ((c : Thread nD τ).loc main_arg4) :=
  (W2_of_ne m ρ c main_arg4 (by decide)).trans (W1_arg4 m ρ c)

/-- The degree column is an array the first grid only reads. -/
theorem W2_v12 : W2 m ρ c (Proc.devRef .tc main_v12) = dinvCol (m ((c : Thread nD τ).loc main_arg1)) :=
  (W2_arr m ρ c 2).trans ((((dat0 (V1 m ρ) c).arrAt_in 2 rfl _).trans (A_eq0 (V1 m ρ) c 2)).trans (W1_v12 m ρ c))

/-- The first grid's result array, as its write-backs leave it. -/
theorem W2_v13 : W2 m ρ c (Proc.devRef .tc main_v13) = (dat0 (V1 m ρ) c).arrAt 3 cfg0.N := W2_arr m ρ c 3

/-! ## The buffers at the second grid's entry -/

theorem V3_v23 : V3 m ρ c main_v23
    = aggV (m ((c : Thread nD τ).loc main_arg1)) ((dat0 (V1 m ρ) c).arrAt 3 cfg0.N) := by
  show StableHlo.after hostOps1 (W2 m ρ c) (Proc.devRef .tc main_v23) = _
  after_results
  rw [W2_v3, W2_v6, W2_v13]
  rfl

theorem V3_v12 : V3 m ρ c main_v12 = dinvCol (m ((c : Thread nD τ).loc main_arg1)) := by
  show StableHlo.after hostOps1 (W2 m ρ c) (Proc.devRef .tc main_v12) = _
  after_results
  exact W2_v12 m ρ c

theorem V3_v24 : V3 m ρ c main_v24 = asRow (m ((c : Thread nD τ).loc main_arg3)) := by
  show StableHlo.after hostOps1 (W2 m ρ c) (Proc.devRef .tc main_v24) = _
  after_results
  rw [W2_arg3]
  rfl

theorem V3_v25 : V3 m ρ c main_v25 = asRow (m ((c : Thread nD τ).loc main_arg4)) := by
  show StableHlo.after hostOps1 (W2 m ρ c) (Proc.devRef .tc main_v25) = _
  after_results
  rw [W2_arg4]
  rfl

end Cert.KernelIdeal.KHost

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KRegion0.lean ====
/-
  The first kernel's output array, entry by entry.

  The kernel walks 20 grid points. At point `t` it reads rows `5000·t … 5000·t + 4999` of `x : [100000, 256]`, the whole
  `W : [256, 128]` and the same rows of the scale column `d : [100000, 1]`, and writes rows `5000·t … 5000·t + 4999` of the
  output `[100000, 128]`: the matrix product of the row block with `W`, each row `p` multiplied by the column's entry of
  that row. At the extended reals rounding the product's operands to a narrower float format is the identity, so the value
  at `(p, q)` of the block is `(∑ k, x_blk(p, k) · W(k, q)) · d_blk(p, 0)`. A block's entry `(p, q)` sits in its array at
  (block index × block extent + coordinate inside the block) on each axis, which here is `(5000·t + p, q)` for the
  row-blocked arrays and `(p, q)` for `W`. Hence what point `t` writes back is block `t` of the single function
  `G(n, j) = (∑ k, x(n, k) · W(k, j)) · d(n, 0)`, the 20 blocks tile the array (row `r` is in block `r / 5000`), and the
  array ends holding `G`.
-/
import proofs.«130555_j6313601925376_2_alg».proof.Proof.Gen.KernelIdeal.Frame
import proofs.«130555_j6313601925376_2_alg».proof.Proof.LibMatmul
import proofs.«130555_j6313601925376_2_alg».proof.Proof.LibKeepdims
import Idealize.ShloMosaic.Lib.ValueIdx
import Idealize.ShloMosaic.Lib.Pipeline.Value
import Idealize.ShloMosaic.PureOps.Ideal.Laws

noncomputable section
open scoped BigOperators

namespace Cert.KernelIdeal.Region0
open Cert.KernelIdeal Idealize.ShloMosaic Idealize.ShloMosaic.TcCoe Idealize.ShloMosaic.ValueIdx Idealize.SL.Sem

/-- The body's stored value at row `p`, column `q` of its block: the row of the first operand against the column of
    the second, summed over the 256 contraction positions, times the scale column's entry of row `p`. Rounding the
    matrix product's operands to the narrower float format changes nothing at the extended reals, the cast of the
    column to its own shape is the identity, and the broadcast copies entry `(p, 0)` along row `p`. -/
theorem payload_apply (x0 : Vec Ideal S5000x256 .f32) (x1 : Vec Ideal S256x128 .f32) (x2 : Vec Ideal S5000x1 .f32)
    (p : Fin 5000) (q : Fin 128) :
    Gen.k0_pay1 x0 x1 x2 (ix2 p q) = (∑ k : Fin 256, x0 (ix2 p k) * x1 (ix2 k q)) * x2 (ix2 p (0 : Fin 1)) := by
  unfold Gen.k0_pay1
  show matmul (F := Ideal) dot_S5000x256_S256x128_S5000x128_1_0_0_1_n_n none (truncf .bf16 x0 Gen.bitsLt_bf16_f32) (truncf .bf16 x1 Gen.bitsLt_bf16_f32) (constant S5000x128 .f32 0x00000000#32) (ix2 p q)
      * broadcastTo S5000x128 (shapeCast S5000x1 x2 Gen.shapeCasts_S5000x1_S5000x1) Gen.broadcasts_S5000x1_S5000x128 (ix2 p q) = _
  refine congrArg₂ (· * ·) ?_ ?_
  · exact Cert.MatOps.matmul_plain_zero_apply (M := 5000) (K := 256) (N := 128) none
      (truncf .bf16 x0 Gen.bitsLt_bf16_f32) (truncf .bf16 x1 Gen.bitsLt_bf16_f32) p q
  · rw [shapeCast_self]
    exact Idealize.ShloMosaic.Keepdims.broadcastTo_a1_ab_apply (a := 5000) (b := 128) x2 Gen.broadcasts_S5000x1_S5000x128 p q 0

section
variable (V : (c : Dev nD) → (b : Ref sig .tc) → Buf (Elt Ideal) ((c : Thread nD τ).loc b)) (c : Dev nD)

/-- The whole output array as one function of the three arrays the region reads: entry `(n, j)` is row `n` of the
    first array against column `j` of the second, summed over the 256 contraction positions, times entry `(n, 0)` of
    the scale column. -/
def G (xs : S100000x256.Idx → EReal) (ws : S256x128.Idx → EReal) (ds : S100000x1.Idx → EReal) : S100000x128.Idx → EReal :=
  fun i => (∑ k : Fin 256, xs (ix2 (i 0) k) * ws (ix2 k (i 1))) * ds (ix2 (i 0) (0 : Fin 1))

theorem G_apply (xs : S100000x256.Idx → EReal) (ws : S256x128.Idx → EReal) (ds : S100000x1.Idx → EReal) (n : Fin 100000) (j : Fin 128) :
    G xs ws ds (ix2 n j) = (∑ k : Fin 256, xs (ix2 n k) * ws (ix2 k j)) * ds (ix2 n (0 : Fin 1)) := rfl

theorem hz : (![0, 0] : Fin 2 → Nat) = fun _ => 0 := funext fun a => by fin_cases a <;> rfl

/-- The block index maps over the 20 grid points: at point `t` the row-blocked windows (the first operand, the scale
    column, the output) are at row block `t`, column block 0; the second operand's one block is at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `y` of the first operand's block at point `t` is the array's entry in row `5000·t + y₀`, column `y₁`
    (on each axis: the block index times the block's extent plus the coordinate inside the block). -/
theorem x_block (t : Fin cfg0.N) (y : S5000x256.Idx) (i : S100000x256.Idx)
    (h0 : (i 0).val = t.val * 5000 + (y 0).val) (h1 : (i 1).val = (y 1).val) :
    (Gen.iblk0 V c 0 t : Vec Ideal S5000x256 .f32) y = (V c main_arg0 : S100000x256.Idx → EReal) i := by
  obtain ⟨a0, a1, -⟩ := idx_facts t
  unfold Gen.iblk0
  rw [View.read_apply]
  show V c main_arg0 _ = V c main_arg0 i
  refine congrArg _ ?_
  funext a
  apply Fin.ext
  match a with
  | ⟨0, _⟩ => show win0_0.index t (0 : Fin 2) * 5000 + 1 * (y 0).val = (i 0).val; rw [a0, h0]; omega
  | ⟨1, _⟩ => show win0_0.index t (1 : Fin 2) * 256 + 1 * (y 1).val = (i 1).val; rw [a1, h1]; omega

/-- The second operand's one block is the whole array. -/
theorem w_block (t : Fin cfg0.N) (y : S256x128.Idx) (i : S256x128.Idx)
    (h0 : (i 0).val = (y 0).val) (h1 : (i 1).val = (y 1).val) :
    (Gen.iblk0 V c 1 t : Vec Ideal S256x128 .f32) y = (V c main_arg2 : S256x128.Idx → EReal) i := by
  obtain ⟨-, -, b0, b1, -⟩ := idx_facts t
  unfold Gen.iblk0
  rw [View.read_apply]
  show V c main_arg2 _ = V c main_arg2 i
  refine congrArg _ ?_
  funext a
  apply Fin.ext
  match a with
  | ⟨0, _⟩ => show win0_1.index t (0 : Fin 2) * 256 + 1 * (y 0).val = (i 0).val; rw [b0, h0]; omega
  | ⟨1, _⟩ => show win0_1.index t (1 : Fin 2) * 128 + 1 * (y 1).val = (i 1).val; rw [b1, h1]; omega

/-- Entry `y` of the scale column's block at point `t` is the column's entry of row `5000·t + y₀`. -/
theorem d_block (t : Fin cfg0.N) (y : S5000x1.Idx) (i : S100000x1.Idx)
    (h0 : (i 0).val = t.val * 5000 + (y 0).val) (h1 : (i 1).val = (y 1).val) :
    (Gen.iblk0 V c 2 t : Vec Ideal S5000x1 .f32) y = (V c main_v12 : S100000x1.Idx → EReal) i := by
  obtain ⟨-, -, -, -, d0, d1, -⟩ := idx_facts t
  unfold Gen.iblk0
  rw [View.read_apply]
  show V c main_v12 _ = V c main_v12 i
  refine congrArg _ ?_
  funext a
  apply Fin.ext
  match a with
  | ⟨0, _⟩ => show win0_2.index t (0 : Fin 2) * 5000 + 1 * (y 0).val = (i 0).val; rw [d0, h0]; omega
  | ⟨1, _⟩ => show win0_2.index t (1 : Fin 2) * 1 + 1 * (y 1).val = (i 1).val; rw [d1, h1]; omega

/-- What point `t` writes back is block `t` of `G` of the arrays as the region finds them: the body's value at
    `(p, q)` reads row `p` of the first operand's block, i.e. row `5000·t + p` of the array, the whole second operand,
    and row `p` of the scale column's block, and the output's block puts `(p, q)` at `(5000·t + p, q)`. -/
theorem flushed_eq (t : Fin cfg0.N) :
    (Gen.dat0 (F := Ideal) V c).flushed 3 t
      = ((cfg0.win 3).blk t).view.read (Elt Ideal) (G (V c main_arg0) (V c main_arg2) (V c main_v12)) := by
  show (cfg0.win 3).cut (grid0.coords t) ((Gen.dat0 V c).after 3 t) = _
  rw [Gen.after0_3]
  unfold Gen.out0_3
  rw [View.canon_unit_zero hz]
  simp only [View.ld_unit_zero (S := S5000x256) hz, View.ld_unit_zero (S := S256x128) hz, View.ld_unit_zero (S := S5000x1) hz]
  obtain ⟨-, -, -, -, -, -, o0, o1⟩ := idx_facts t
  refine funext fun (y : S5000x128.Idx) => ?_
  obtain ⟨p, q, rfl⟩ : ∃ (p : Fin 5000) (q : Fin 128), y = ix2 p q := ⟨y 0, y 1, eq_ix2 y⟩
  show Gen.k0_pay1 (Gen.iblk0 V c 0 t) (Gen.iblk0 V c 1 t) (Gen.iblk0 V c 2 t) (ix2 p q)
    = G (V c main_arg0) (V c main_arg2) (V c main_v12) (((cfg0.win 3).blk t).view.emb (ix2 p q))
  refine (payload_apply (Gen.iblk0 V c 0 t) (Gen.iblk0 V c 1 t) (Gen.iblk0 V c 2 t) p q).trans ?_
  have e0 : ((((cfg0.win 3).blk t).view.emb (ix2 p q)) 0).val = t.val * 5000 + p.val := by
    show win0_3.index t (0 : Fin 2) * 5000 + 1 * p.val = _; rw [o0]; omega
  have e1 : ((((cfg0.win 3).blk t).view.emb (ix2 p q)) 1).val = q.val := by
    show win0_3.index t (1 : Fin 2) * 128 + 1 * q.val = _; rw [o1]; omega
  unfold G
  refine congrArg₂ (· * ·) (Finset.sum_congr rfl fun k _ => congrArg₂ (· * ·) ?_ ?_) ?_
  · exact x_block V c t (ix2 p k) _ e0 rfl
  · exact w_block V c t (ix2 k q) _ rfl e1
  · exact d_block V c t (ix2 p 0) _ e0 rfl

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- The 20 row blocks of 5000 rows tile the 100000 rows, and the one column block is all 128 columns: row `r` is in
    the block of point `r / 5000`, which writes back (every point does). -/
theorem cover (i : S100000x128.Idx) :
    ∃ t : Fin cfg0.N, (cfg0.win 3).flush t = true ∧ i ∈ ((cfg0.win 3).blk t).view.set := by
  have hN : cfg0.N = 20 := Gen.N_0
  have hi0 : (i 0).val < 100000 := (i 0).isLt
  have hi1 : (i 1).val < 128 := (i 1).isLt
  have ht : (i 0).val / 5000 < cfg0.N := lt_of_lt_of_eq (b := 20) (by omega) hN.symm
  obtain ⟨-, -, -, -, -, -, o0, o1⟩ := idx_facts ⟨(i 0).val / 5000, ht⟩
  refine ⟨⟨(i 0).val / 5000, ht⟩, Gen.flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [o1]
    omega

/-- So the output array ends holding `G` of the arrays the region found. -/
theorem arr_eq : ((Gen.dat0 (F := Ideal) V c).arrAt 3 cfg0.N : S100000x128.Idx → EReal)
    = G (V c main_arg0) (V c main_arg2) (V c main_v12) :=
  (Gen.dat0 (F := Ideal) V c).arrAt_eq_of_cover 3 (G (V c main_arg0) (V c main_arg2) (V c main_v12))
    (fun t _ => flushed_eq V c t) cover
end

/-- The first region's output array, entry by entry: `(x · W)(n, j)` scaled by the column's entry of row `n`. -/
theorem final (V : (c : Dev nD) → (b : Ref sig .tc) → Buf (Elt Ideal) ((c : Thread nD τ).loc b)) (c : Dev nD)
    (xs : S100000x256.Idx → EReal) (ws : S256x128.Idx → EReal) (ds : S100000x1.Idx → EReal)
    (hx : V c main_arg0 = xs) (hw : V c main_arg2 = ws) (hd : V c main_v12 = ds)
    (n : Fin 100000) (j : Fin 128) :
    ((Gen.dat0 (F := Ideal) V c).arrAt 3 cfg0.N : S100000x128.Idx → EReal) (ix2 n j)
      = (∑ k : Fin 256, xs (ix2 n k) * ws (ix2 k j)) * ds (ix2 n (0 : Fin 1)) := by
  subst hx hw hd
  exact (congrFun (arr_eq V c) (ix2 n j)).trans (G_apply _ _ _ n j)

end Cert.KernelIdeal.Region0
end
-- ==== Proof.Spec.lean ====
/-
  A graph-convolution layer with symmetric degree normalisation, index by index on the extended reals.

  Nodes are `Fin 100000`, edges (the graph's edges followed by one self loop per node) are `Fin 1700000`; `row` and
  `col` hold each edge's source and destination as 32-bit words. Edge `e` flows INTO node `n` when its destination
  word, read signed, is `n` (a word outside the node range flows nowhere). The in-degree of `n` is the number of such
  edges, `dinv n` its reciprocal square root, and an edge's source node is its source word wrapped (a negative word
  counts from the end) and clamped into the node range.

  The layer's value before the activation is written in two arrangements. In the first every message `(x·W)[src e]` is
  scaled by `dinv (src e)` before it is summed into its destination, and the sum is scaled by `dinv n` afterwards. In
  the second every message is scaled by the product `dinv (src e) · dinv (dst e)` before it is summed. The two agree
  (`preK_eq_preR`): for an edge into `n` the destination is `n`; `dinv n` is a non-negative real whenever some edge
  flows into `n`, and multiplication by a non-negative real distributes over any sum of extended reals; when no edge
  flows into `n` both sums are empty.
-/
import Idealize.ShloMosaic.PureOps.Ideal
import Idealize.ShloMosaic.Lib.ValueIdx

noncomputable section

open scoped BigOperators

namespace Cert.Gcn

open Idealize.ShloMosaic Idealize.ShloMosaic.ValueIdx

/-- The word `0.0`. -/
abbrev zeroW : BitVec 32 := 0x00000000#32
/-- The word `1.0`. -/
abbrev oneW : BitVec 32 := 0x3F800000#32

/-- The edges whose destination word, read signed, is node `n`. -/
def inEdges (col : IVec ⟨1, ![1700000]⟩ 32) (n : Fin 100000) : Finset (Fin 1700000) :=
  Finset.univ.filter fun e => (col (ix1 e)).toInt = (n.val : Int)

/-- A word wrapped as an index that may count from the end: `w + 100000` when `w` is negative, else `w`. -/
def wrapWord (w : BitVec 32) : BitVec 32 :=
  Scalar.select (IntOp.cmpi .slt w 0#32) (IntOp.addi w 100000#32) w

/-- A word read signed and clamped into the node range. -/
def clampNode (w : BitVec 32) : Fin 100000 := ⟨min w.toInt.toNat (100000 - 1), by omega⟩

/-- The node an index word of an edge array selects: wrapped, then clamped. -/
def nodeOf (v : IVec ⟨1, ![1700000]⟩ 32) (e : Fin 1700000) : Fin 100000 := clampNode (wrapWord (v (ix1 e)))

/-- The in-degree of `n`: a sum of ones over the edges into `n`, from zero. -/
def deg (col : IVec ⟨1, ![1700000]⟩ 32) (n : Fin 100000) : EReal :=
  Ideal.ofBits .f32 zeroW + ∑ _e ∈ inEdges col n, Ideal.ofBits .f32 oneW

/-- The reciprocal square root of the in-degree. -/
def dinv (col : IVec ⟨1, ![1700000]⟩ 32) (n : Fin 100000) : EReal := Ideal.rsqrt (deg col n)

/-- The linear transform `x·W` at node `n`, channel `j`. -/
def mm (x : (⟨2, ![100000, 256]⟩ : Shape).Idx → EReal) (W : (⟨2, ![256, 128]⟩ : Shape).Idx → EReal)
    (n : Fin 100000) (j : Fin 128) : EReal :=
  ∑ k : Fin 256, x (ix2 n k) * W (ix2 k j)

/-- The first arrangement: messages scaled at the source, summed, the sum scaled at the destination, the bias added. -/
def preK (x : (⟨2, ![100000, 256]⟩ : Shape).Idx → EReal) (W : (⟨2, ![256, 128]⟩ : Shape).Idx → EReal)
    (b : (⟨1, ![128]⟩ : Shape).Idx → EReal) (row col : IVec ⟨1, ![1700000]⟩ 32) (n : Fin 100000) (j : Fin 128) : EReal :=
  (Ideal.ofBits .f32 zeroW + ∑ e ∈ inEdges col n, mm x W (nodeOf row e) j * dinv col (nodeOf row e)) * dinv col n
    + b (ix1 j)

/-- The second arrangement: messages scaled by the edge's weight `dinv (src) · dinv (dst)`, summed, the bias added. -/
def preR (x : (⟨2, ![100000, 256]⟩ : Shape).Idx → EReal) (W : (⟨2, ![256, 128]⟩ : Shape).Idx → EReal)
    (b : (⟨1, ![128]⟩ : Shape).Idx → EReal) (row col : IVec ⟨1, ![1700000]⟩ 32) (n : Fin 100000) (j : Fin 128) : EReal :=
  (Ideal.ofBits .f32 zeroW
      + ∑ e ∈ inEdges col n, mm x W (nodeOf row e) j * (dinv col (nodeOf row e) * dinv col (nodeOf col e)))
    + b (ix1 j)

/-- The parametric rectifier at one entry: `z` when `z ≥ 0`, else `a · z`. -/
def prelu (z a : EReal) : EReal :=
  Scalar.select (FloatOps.cmpf (F := Ideal) .oge z (Ideal.ofBits .f32 zeroW)) z (a * z)

/-- The layer in the first arrangement, as one array. -/
def outK (x : (⟨2, ![100000, 256]⟩ : Shape).Idx → EReal) (W : (⟨2, ![256, 128]⟩ : Shape).Idx → EReal)
    (b alpha : (⟨1, ![128]⟩ : Shape).Idx → EReal) (row col : IVec ⟨1, ![1700000]⟩ 32) :
    (⟨2, ![100000, 128]⟩ : Shape).Idx → EReal :=
  fun i => prelu (preK x W b row col (i 0) (i 1)) (alpha (ix1 (i 1)))

/-- The layer in the second arrangement, as one array. -/
def outR (x : (⟨2, ![100000, 256]⟩ : Shape).Idx → EReal) (W : (⟨2, ![256, 128]⟩ : Shape).Idx → EReal)
    (b alpha : (⟨1, ![128]⟩ : Shape).Idx → EReal) (row col : IVec ⟨1, ![1700000]⟩ 32) :
    (⟨2, ![100000, 128]⟩ : Shape).Idx → EReal :=
  fun i => prelu (preR x W b row col (i 0) (i 1)) (alpha (ix1 (i 1)))

theorem outK_apply (x W b alpha row col) (n : Fin 100000) (j : Fin 128) :
    outK x W b alpha row col (ix2 n j) = prelu (preK x W b row col n j) (alpha (ix1 j)) := rfl

theorem outR_apply (x W b alpha row col) (n : Fin 100000) (j : Fin 128) :
    outR x W b alpha row col (ix2 n j) = prelu (preR x W b row col n j) (alpha (ix1 j)) := rfl

end Cert.Gcn

end
-- ==== Proof.KRegion1.lean ====
/-
  The second kernel of the layer, read entry by entry.

  The kernel walks the 100000 rows of the aggregate `agg : [100000, 128]` in 20 blocks of 5000 rows. At block `t` it
  reads rows `5000 t … 5000 t + 4999` of the aggregate and of the degree column `dinv : [100000, 1]`, the whole bias
  row `b : [1, 128]` and the whole slope row `alpha : [1, 128]`, and writes rows `5000 t … 5000 t + 4999` of the output:
  at row `p` of the block and channel `q`

      z = agg (5000 t + p, q) · dinv (5000 t + p, 0) + b (0, q),     out (5000 t + p, q) = z  if z ≥ 0,  alpha (0, q) · z  otherwise.

  Every output entry depends on one entry of the aggregate, one of the column (its row's), one of the bias and one of the
  slope row (its channel's). The 20 blocks tile the output (row `r` lies in block `r / 5000`), and each block written is
  the restriction of ONE whole-array function `post` of the four arrays, so after the last block the output array is
  `post`. The steps: the stored value of a block at `(p, q)` (`pay_apply`); each input block as entries of its array
  (`agg_block`, `deg_block`, `bias_block`, `slope_block`); what a point writes back (`flushed_eq`); the blocks cover
  the array (`mem_blk`, `cover`); the array after the region (`arr_eq`, `final`).
-/
import proofs.«130555_j6313601925376_2_alg».proof.Proof.Gen.KernelIdeal.Frame
import proofs.«130555_j6313601925376_2_alg».proof.Proof.Spec
import proofs.«130555_j6313601925376_2_alg».proof.Proof.LibKeepdims
import Idealize.ShloMosaic.Lib.ValueIdx
import Idealize.ShloMosaic.Lib.Pipeline.Value
import Idealize.ShloMosaic.Lib.ValueLayout

noncomputable section
open scoped BigOperators

namespace Cert.KernelIdeal.Region1
open Cert.KernelIdeal Idealize.ShloMosaic Idealize.ShloMosaic.TcCoe Idealize.ShloMosaic.ValueIdx Idealize.SL.Sem

/-- The layer's output as one array of the aggregate, the degree column, the bias row and the slope row: entry
    `(n, j)` is the parametric rectifier, with slope `al (0, j)`, of `ag (n, j) · ds (n, 0) + bs (0, j)`. -/
def post (ag : S100000x128.Idx → EReal) (ds : S100000x1.Idx → EReal) (bs al : S1x128.Idx → EReal) :
    S100000x128.Idx → EReal :=
  fun i => Cert.Gcn.prelu
    (ag i * ds (ix2 (n0 := 100000) (n1 := 1) (i 0) (0 : Fin 1)) + bs (ix2 (n0 := 1) (n1 := 128) (0 : Fin 1) (i 1)))
    (al (ix2 (n0 := 1) (n1 := 128) (0 : Fin 1) (i 1)))

theorem post_apply (ag : S100000x128.Idx → EReal) (ds : S100000x1.Idx → EReal) (bs al : S1x128.Idx → EReal)
    (n : Fin 100000) (j : Fin 128) :
    post ag ds bs al (ix2 n j)
      = Cert.Gcn.prelu (ag (ix2 n j) * ds (ix2 n (0 : Fin 1)) + bs (ix2 (0 : Fin 1) j)) (al (ix2 (0 : Fin 1) j)) := rfl

/-- The body's stored value at row `p`, channel `q` of a block: the rectifier of the aggregate's entry times the
    degree column's entry of row `p` (the column copied along the row) plus the bias row's entry of channel `q`
    (the row copied down the rows), with the slope row's entry of channel `q`. The three shape casts are to the
    operand's own shape. -/
theorem pay_apply (x0 : Vec Ideal S5000x128 .f32) (x1 : Vec Ideal S5000x1 .f32) (x2 x3 : Vec Ideal S1x128 .f32)
    (p : Fin 5000) (q : Fin 128) :
    Gen.k1_pay1 x0 x1 x2 x3 (ix2 p q)
      = Cert.Gcn.prelu (x0 (ix2 p q) * x1 (ix2 p (0 : Fin 1)) + x2 (ix2 (0 : Fin 1) q)) (x3 (ix2 (0 : Fin 1) q)) := by
  have h0 : shapeCast S5000x128 x0 Gen.shapeCasts_S5000x128_S5000x128 (ix2 p q) = x0 (ix2 p q) :=
    congrFun (shapeCast_self x0 _) _
  have h1 : broadcastTo S5000x128 (shapeCast S5000x1 x1 Gen.shapeCasts_S5000x1_S5000x1) Gen.broadcasts_S5000x1_S5000x128 (ix2 p q)
      = x1 (ix2 p (0 : Fin 1)) :=
    (Keepdims.broadcastTo_a1_ab_apply _ _ p q (0 : Fin 1)).trans (congrFun (shapeCast_self x1 _) _)
  have h2 : broadcastTo S5000x128 (shapeCast S1x128 x2 Gen.shapeCasts_S1x128_S1x128) Gen.broadcasts_S1x128_S5000x128 (ix2 p q)
      = x2 (ix2 (0 : Fin 1) q) :=
    (broadcastTo_1b_ab_apply _ _ p q).trans (congrFun (shapeCast_self x2 _) _)
  have h3 : broadcastTo S5000x128 (shapeCast S1x128 x3 Gen.shapeCasts_S1x128_S1x128) Gen.broadcasts_S1x128_S5000x128 (ix2 p q)
      = x3 (ix2 (0 : Fin 1) q) :=
    (broadcastTo_1b_ab_apply _ _ p q).trans (congrFun (shapeCast_self x3 _) _)
  unfold Gen.k1_pay1 Cert.Gcn.prelu
  show Scalar.select (FloatOps.cmpf (F := Ideal) .oge
        (shapeCast S5000x128 x0 _ (ix2 p q) * broadcastTo S5000x128 (shapeCast S5000x1 x1 _) _ (ix2 p q)
          + broadcastTo S5000x128 (shapeCast S1x128 x2 _) _ (ix2 p q)) (Ideal.ofBits .f32 0x00000000#32))
      (shapeCast S5000x128 x0 _ (ix2 p q) * broadcastTo S5000x128 (shapeCast S5000x1 x1 _) _ (ix2 p q)
          + broadcastTo S5000x128 (shapeCast S1x128 x2 _) _ (ix2 p q))
      (broadcastTo S5000x128 (shapeCast S1x128 x3 _) _ (ix2 p q)
        * (shapeCast S5000x128 x0 _ (ix2 p q) * broadcastTo S5000x128 (shapeCast S5000x1 x1 _) _ (ix2 p q)
          + broadcastTo S5000x128 (shapeCast S1x128 x2 _) _ (ix2 p q))) = _
  rw [h0, h1, h2, h3]

theorem zero_offsets : (![0, 0] : Fin 2 → Nat) = fun _ => 0 := funext fun a => by fin_cases a <;> rfl

/-- The five index maps over the 20 grid points: the aggregate's and the output's block index is `(t, 0)`, the degree
    column's is `(t, 0)`, the bias and slope rows' is `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Block `t` of the aggregate: its entry `(p, q)` is the array's entry `(5000 t + p, q)`. -/
theorem agg_block (t : Fin cfg1.N) (p : Fin 5000) (q : Fin 128) (k : S100000x128.Idx)
    (hk0 : (k 0).val = t.val * 5000 + p.val) (hk1 : (k 1).val = q.val) :
    (Gen.iblk1 V c 0 t : Vec Ideal S5000x128 .f32) (ix2 p q) = (V c main_v23 : S100000x128.Idx → EReal) k := by
  obtain ⟨e0, e1, -⟩ := index_facts t
  unfold Gen.iblk1
  rw [View.read_apply]
  show (V c main_v23 : S100000x128.Idx → EReal) _ = (V c main_v23 : S100000x128.Idx → EReal) k
  refine congrArg _ (funext fun a => Fin.ext ?_)
  match a with
  | ⟨0, _⟩ => show win1_0.index t (0 : Fin 2) * 5000 + 1 * p.val = (k 0).val; rw [e0, hk0]; omega
  | ⟨1, _⟩ => show win1_0.index t (1 : Fin 2) * 128 + 1 * q.val = (k 1).val; rw [e1, hk1]; omega

/-- Block `t` of the degree column: its entry `(p, 0)` is the column's entry `(5000 t + p, 0)`. -/
theorem deg_block (t : Fin cfg1.N) (p : Fin 5000) (k : S100000x1.Idx) (hk0 : (k 0).val = t.val * 5000 + p.val) :
    (Gen.iblk1 V c 1 t : Vec Ideal S5000x1 .f32) (ix2 p (0 : Fin 1)) = (V c main_v12 : S100000x1.Idx → EReal) k := by
  obtain ⟨-, -, e0, e1, -⟩ := index_facts t
  unfold Gen.iblk1
  rw [View.read_apply]
  show (V c main_v12 : S100000x1.Idx → EReal) _ = (V c main_v12 : S100000x1.Idx → EReal) k
  refine congrArg _ (funext fun a => Fin.ext ?_)
  match a with
  | ⟨0, _⟩ => show win1_1.index t (0 : Fin 2) * 5000 + 1 * p.val = (k 0).val; rw [e0, hk0]; omega
  | ⟨1, _⟩ =>
    show win1_1.index t (1 : Fin 2) * 1 + 1 * 0 = (k 1).val
    have hk : (k 1).val < 1 := (k 1).isLt
    rw [e1]; omega

/-- The bias row's one block is the row. -/
theorem bias_block (t : Fin cfg1.N) (q : Fin 128) :
    (Gen.iblk1 V c 2 t : Vec Ideal S1x128 .f32) (ix2 (0 : Fin 1) q) = (V c main_v24 : S1x128.Idx → EReal) (ix2 (0 : Fin 1) q) := by
  obtain ⟨-, -, -, -, e0, e1, -⟩ := index_facts t
  unfold Gen.iblk1
  rw [View.read_apply]
  show (V c main_v24 : S1x128.Idx → EReal) _ = (V c main_v24 : S1x128.Idx → EReal) _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- The slope row's one block is the row. -/
theorem slope_block (t : Fin cfg1.N) (q : Fin 128) :
    (Gen.iblk1 V c 3 t : Vec Ideal S1x128 .f32) (ix2 (0 : Fin 1) q) = (V c main_v25 : S1x128.Idx → EReal) (ix2 (0 : Fin 1) q) := by
  obtain ⟨-, -, -, -, -, -, e0, e1, -⟩ := index_facts t
  unfold Gen.iblk1
  rw [View.read_apply]
  show (V c main_v25 : S1x128.Idx → EReal) _ = (V c main_v25 : S1x128.Idx → EReal) _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- What point `t` writes back is block `t` of `post` of the four arrays as the region finds them: the one store is
    the whole staging block, the loads are the whole input blocks, and every input block is read where the output
    block's rows and channels say. -/
theorem flushed_eq (t : Fin cfg1.N) :
    (Gen.dat1 (F := Ideal) V c).flushed 4 t
      = ((cfg1.win 4).blk t).view.read (Elt Ideal) (post (V c main_v23) (V c main_v12) (V c main_v24) (V c main_v25)) := by
  show (cfg1.win 4).cut (grid1.coords t) ((Gen.dat1 (F := Ideal) V c).after 4 t) = _
  rw [Gen.after1_4]
  unfold Gen.out1_4
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, -, -, e0, e1⟩ := index_facts t
  have hN : grid1.N = 20 := Gen.N_1
  have ht : t.val < 20 := hN ▸ t.isLt
  funext y
  obtain ⟨p, q, rfl⟩ : ∃ (p : Fin 5000) (q : Fin 128), y = ix2 p q := ⟨y 0, y 1, eq_ix2 (n0 := 5000) (n1 := 128) y⟩
  have hp : t.val * 5000 + p.val < 100000 := by have := p.isLt; omega
  have hemb : ((cfg1.win 4).blk t).view.emb (ix2 p q) = ix2 (n0 := 100000) (n1 := 128) ⟨t.val * 5000 + p.val, hp⟩ q := by
    funext a; apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  show Gen.k1_pay1 (Gen.iblk1 V c 0 t) (Gen.iblk1 V c 1 t) (Gen.iblk1 V c 2 t) (Gen.iblk1 V c 3 t) (ix2 p q)
      = post (V c main_v23) (V c main_v12) (V c main_v24) (V c main_v25) (((cfg1.win 4).blk t).view.emb (ix2 p q))
  rw [hemb, post_apply]
  refine (pay_apply (Gen.iblk1 V c 0 t) (Gen.iblk1 V c 1 t) (Gen.iblk1 V c 2 t) (Gen.iblk1 V c 3 t) p q).trans ?_
  rw [agg_block V c t p q (ix2 (n0 := 100000) (n1 := 128) ⟨t.val * 5000 + p.val, hp⟩ q) rfl rfl,
    deg_block V c t p (ix2 (n0 := 100000) (n1 := 1) ⟨t.val * 5000 + p.val, hp⟩ (0 : Fin 1)) rfl,
    bias_block V c t q, slope_block V c t q]

/-- An index of the array is in point `t`'s block iff each coordinate is in the block's range on its axis. -/
theorem mem_blk (t : Fin cfg1.N) (i : S100000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v26).slice (win1_4.rect t)).set ↔ _
  rw [View.set_slice_whole, Rect.mem_set_unit]
  exact Iff.rfl

/-- Every entry of the output is in some point's block: row `r` is in the block of point `r / 5000` (20 blocks of
    5000 rows are the 100000 rows; one block spans the 128 channels). -/
theorem cover (i : S100000x128.Idx) :
    ∃ t : Fin cfg1.N, (cfg1.win 4).flush t = true ∧ i ∈ ((cfg1.win 4).blk t).view.set := by
  have hN : grid1.N = 20 := Gen.N_1
  have hi0 : (i 0).val < 100000 := (i 0).isLt
  have hi1 : (i 1).val < 128 := (i 1).isLt
  have hlt : (i 0).val / 5000 < grid1.N := by rw [hN]; omega
  refine ⟨⟨(i 0).val / 5000, hlt⟩, Gen.flush1_4 _, ?_⟩
  rw [mem_blk]
  obtain ⟨-, -, -, -, -, -, -, -, e0, e1⟩ := index_facts ⟨(i 0).val / 5000, hlt⟩
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e1]; omega

/-- The output array after the region is `post` of the four arrays as the region finds them. -/
theorem arr_eq : ((Gen.dat1 (F := Ideal) V c).arrAt 4 cfg1.N : S100000x128.Idx → EReal)
    = post (V c main_v23) (V c main_v12) (V c main_v24) (V c main_v25) :=
  (Gen.dat1 (F := Ideal) V c).arrAt_eq_of_cover 4 (post (V c main_v23) (V c main_v12) (V c main_v24) (V c main_v25))
    (fun t _ => flushed_eq V c t) cover

end Blocks

/-- The second kernel's output, entry by entry: the rectifier of the aggregate times the degree column plus the bias,
    with the slope row's slope. -/
theorem final (V : (c : Dev nD) → (b : Ref sig .tc) → Buf (Elt Ideal) ((c : Thread nD τ).loc b)) (c : Dev nD)
    (ag : S100000x128.Idx → EReal) (ds : S100000x1.Idx → EReal) (bs al : S1x128.Idx → EReal)
    (hag : V c main_v23 = ag) (hd : V c main_v12 = ds) (hb : V c main_v24 = bs) (ha : V c main_v25 = al)
    (n : Fin 100000) (j : Fin 128) :
    ((Gen.dat1 (F := Ideal) V c).arrAt 4 cfg1.N : S100000x128.Idx → EReal) (ix2 n j)
      = Cert.Gcn.prelu (ag (ix2 n j) * ds (ix2 n (0 : Fin 1)) + bs (ix2 (0 : Fin 1) j)) (al (ix2 (0 : Fin 1) j)) := by
  subst hag hd hb ha
  rw [arr_eq V c]
  rfl

end Cert.KernelIdeal.Region1
end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.KValue.lean ====
/-
  The kernel program's result is the graph-convolution layer in its first arrangement.

  The second grid of kernel calls leaves, at `(n, j)`, the activation of `agg(n, j) · dinv n + b j` with slope `alpha j`,
  where `agg` is the host's aggregation between the grids: the sum, over the edges into `n`, of channel `j` of the first
  grid's result at the edge's source node. The first grid leaves at `(n', j)` the linear transform `(x·W)(n', j)`
  scaled by `dinv n'`. Read index by index — the host's gather and accumulating scatter, the degree column, the bias
  and slope rows — this is `Cert.Gcn.outK` of the argument arrays and the edge words.
-/
import proofs.«130555_j6313601925376_2_alg».proof.Proof.KHost
import proofs.«130555_j6313601925376_2_alg».proof.Proof.KRegion0
import proofs.«130555_j6313601925376_2_alg».proof.Proof.KRegion1
import proofs.«130555_j6313601925376_2_alg».proof.Proof.Spec
import proofs.«130555_j6313601925376_2_alg».proof.Proof.LibScatterGather
import proofs.«130555_j6313601925376_2_alg».proof.Proof.LibKeepdims
import Idealize.ShloMosaic.Lib.ValueLayout
import Idealize.ShloMosaic.Lib.Pipeline.Value

set_option maxRecDepth 16384

noncomputable section

open scoped BigOperators

namespace Cert.KernelIdeal.KValue

open Cert.KernelIdeal Cert.KernelIdeal.Facts₀ Cert.KernelIdeal.KHost
open Cert.KernelIdeal.Gen (W1 W2 W3 W4 V1 V3 dat0 dat1 W4_arr)
open Idealize.ShloMosaic Idealize.ShloMosaic.TcCoe Idealize.SL.Sem Idealize.ShloMosaic.ValueIdx
open Cert.Lib.ScatterGather Cert.Gcn

/-! ## The host's terms, read at an index -/

/-- The column of index vectors made of a word array holds, at `(e, 0)`, the array's word `e`. -/
theorem asColumn_apply (v : (⟨S1700000, .i32⟩ : BufTy).Contents (Elt Ideal)) (e : Fin 1700000) :
    asColumn v (ix2 e (0 : Fin 1)) = v (ix1 e) := by
  unfold asColumn
  refine broadcastInDim_apply _ _ v (ix2 e (0 : Fin 1)) (ix1 e) fun a => ?_
  match a with
  | ⟨0, _⟩ =>
    show e.val = if (1700000 : ℕ) = 1 then 0 else e.val
    rw [if_neg (by decide)]

/-- The wrapped word array holds the wrapped words. -/
theorem wrapped_apply (v : (⟨S1700000, .i32⟩ : BufTy).Contents (Elt Ideal)) (e : Fin 1700000) :
    wrapped v (ix1 e) = wrapWord (v (ix1 e)) := rfl

/-- A channel vector laid out as a row holds, at `(0, j)`, the vector's entry `j`. -/
theorem asRow_apply (v : (⟨S128, .f32⟩ : BufTy).Contents (Elt Ideal)) (j : Fin 128) :
    asRow v (ix2 (0 : Fin 1) j) = v (ix1 j) := by
  unfold asRow
  exact shapeCast_a_1a_apply v _ 0 j

/-- The in-degree array holds the in-degrees. -/
theorem degV_apply (x1 : (⟨S2x1600000, .i32⟩ : BufTy).Contents (Elt Ideal)) (n : Fin 100000) :
    degV x1 (ix1 n) = deg (colW x1) n := by
  unfold degV
  refine (scatterAdd1_apply (N := 100000) (E := 1700000) scatter_S100000_S1700000x1_S1700000_n_0_0_1_wf _ _ _ n).trans ?_
  simp only [asColumn_apply]
  rfl

/-- The host's reciprocal square root of an array, at an index, is the ideal one of the entry. -/
theorem hostRsqrt_apply {s : Shape} (d : FVec Ideal s .f32) (i : s.Idx) :
    Host.rsqrt (F := Ideal) d i = Ideal.rsqrt (d i) := rfl

/-- The degree column holds, at `(n, 0)`, the reciprocal square root of the in-degree of `n`. -/
theorem dinvCol_apply (x1 : (⟨S2x1600000, .i32⟩ : BufTy).Contents (Elt Ideal)) (n : Fin 100000) :
    dinvCol x1 (ix2 n (0 : Fin 1)) = dinv (colW x1) n := by
  unfold dinvCol dinv
  refine (Idealize.ShloMosaic.Keepdims.shapeCast_a_a1_apply _ _ n 0).trans ?_
  rw [hostRsqrt_apply, degV_apply]

/-- The aggregation holds, at `(n, j)`, the sum over the edges into `n` of channel `j` of the gathered rows. -/
theorem aggV_apply (x1 : (⟨S2x1600000, .i32⟩ : BufTy).Contents (Elt Ideal))
    (hs : (⟨S100000x128, .f32⟩ : BufTy).Contents (Elt Ideal)) (n : Fin 100000) (j : Fin 128) :
    aggV x1 hs (ix2 n j)
      = Ideal.ofBits .f32 zeroW + ∑ e ∈ inEdges (colW x1) n, hs (ix2 (nodeOf (rowW x1) e) j) := by
  unfold aggV
  refine (scatterAddRows_apply (N := 100000) (C := 128) (E := 1700000)
    scatter_S100000x128_S1700000x1_S1700000x128_1_0_0_1_wf _ _ _ n j).trans ?_
  simp only [asColumn_apply]
  refine congrArg₂ (· + ·) rfl (Finset.sum_congr rfl fun e _ => ?_)
  refine (gather_rows_apply (N := 100000) (C := 128) (E := 1700000) (by decide)
    gather_S100000x128_S1700000x1_S1700000x128_1_0_n_n_0_1_1128_wf hs _ e j).trans ?_
  -- the row gathered for edge `e` is that of the node its start index word selects: the word read signed and clamped
  show hs (ix2 (clampNode (asColumn (wrapped (rowW x1)) (ix2 e (0 : Fin 1)))) j) = _
  rw [asColumn_apply, wrapped_apply]
  rfl

/-! ## The result -/

variable (m : (ℓ : Loc nD τ sig) → Buf (Elt Ideal) ℓ) (ρ : Dev nD → PrngReg) (c : Dev nD)

/-- The first grid's result: at `(n, j)` the linear transform of node `n` scaled by the reciprocal square root of its
    in-degree. -/
theorem scaled_apply (n : Fin 100000) (j : Fin 128) :
    ((dat0 (V1 m ρ) c).arrAt 3 cfg0.N : S100000x128.Idx → EReal) (ix2 n j)
      = mm (m ((c : Thread nD τ).loc main_arg0)) (m ((c : Thread nD τ).loc main_arg2)) n j
          * dinv (colW (m ((c : Thread nD τ).loc main_arg1))) n := by
  rw [Cert.KernelIdeal.Region0.final (V1 m ρ) c _ _ _ (W1_arg0 m ρ c) (W1_arg2 m ρ c) (W1_v12 m ρ c) n j, dinvCol_apply]
  rfl

/-- THE KERNEL PROGRAM'S RESULT is the layer in its first arrangement. -/
theorem value : W4 m ρ c (Proc.devRef .tc main_v26)
    = outK (m ((c : Thread nD τ).loc main_arg0)) (m ((c : Thread nD τ).loc main_arg2))
        (m ((c : Thread nD τ).loc main_arg3)) (m ((c : Thread nD τ).loc main_arg4))
        (rowW (m ((c : Thread nD τ).loc main_arg1))) (colW (m ((c : Thread nD τ).loc main_arg1))) := by
  refine (W4_arr m ρ c 4).trans ?_
  funext i
  obtain ⟨n, j, rfl⟩ : ∃ (n : Fin 100000) (j : Fin 128), i = ix2 n j := ⟨i 0, i 1, eq_ix2 i⟩
  rw [Cert.KernelIdeal.Region1.final (V3 m ρ) c _ _ _ _ (V3_v23 m ρ c) (V3_v12 m ρ c) (V3_v24 m ρ c) (V3_v25 m ρ c) n j,
    outK_apply, aggV_apply, dinvCol_apply, asRow_apply, asRow_apply]
  unfold preK
  simp only [scaled_apply]

end Cert.KernelIdeal.KValue

end
-- ==== Proof.RValue.lean ====
/-
  The reference program's result, index by index, is the graph-convolution layer in its second arrangement.

  With `row` and `col` the program's own edge arrays (the source and destination words of the graph's edges
  followed by one self loop per node; they stay opaque here), at node `n` and channel `j`:
  the flat scatter-add of ones along `col` is the in-degree of `n` (an update lands on `n` exactly when its
  destination word, read signed, is `n`), and its reciprocal square root is `dinv n`; a gather of `dinv` at an
  index word reads it at the word wrapped (a negative word counts from the end) and clamped into the node range,
  which for the source and destination words of edge `e` are the nodes `nodeOf row e` and `nodeOf col e`; the
  contraction is `x·W`, and its row gather at the source words gives `(x·W)(nodeOf row e, j)`; the message of
  edge `e` is that entry times the edge weight `dinv (src e) · dinv (dst e)`; the row scatter-add along `col` sums
  the messages of the edges into `n` from zero; the bias `b j` is added and the parametric rectifier with slope
  `alpha j` applied.
-/
import proofs.«130555_j6313601925376_2_alg».proof.Proof.Gen.ReferenceIdeal.Read
import proofs.«130555_j6313601925376_2_alg».proof.Proof.Spec
import proofs.«130555_j6313601925376_2_alg».proof.Proof.LibScatterGather
import proofs.«130555_j6313601925376_2_alg».proof.Proof.LibMatmul
noncomputable section
open scoped BigOperators
namespace Cert.ReferenceIdeal.RefValue
open Cert.ReferenceIdeal Cert.ReferenceIdeal.Read Idealize.ShloMosaic Idealize.ShloMosaic.ValueIdx
open Cert.Lib.ScatterGather

/-! ## The printed dimension records are the library's -/

theorem scat1_rec : scatter_S100000_S1700000x1_S1700000_n_0_0_1
    = scat1Dims 100000 1700000 Facts₀.scatter_S100000_S1700000x1_S1700000_n_0_0_1_wf := rfl
theorem take1_rec : gather_S100000_S1700000x1_S1700000_n_0_n_n_0_1_1
    = take1Dims 100000 1700000 Facts₀.gather_S100000_S1700000x1_S1700000_n_0_n_n_0_1_1_wf := rfl
theorem rows_rec : gather_S100000x128_S1700000x1_S1700000x128_1_0_n_n_0_1_1128
    = rowsDims 100000 128 1700000 Facts₀.gather_S100000x128_S1700000x1_S1700000x128_1_0_n_n_0_1_1128_wf := rfl
theorem scatRows_rec : scatter_S100000x128_S1700000x1_S1700000x128_1_0_0_1
    = scatRowsDims 100000 128 1700000 Facts₀.scatter_S100000x128_S1700000x1_S1700000x128_1_0_0_1_wf := rfl

/-! ## Index words as a column -/

/-- Entry `(e, 0)` of the destination column is the destination word of edge `e`. -/
theorem v9_col (x1 : (⟨S2x1600000, .i32⟩ : BufTy).Contents (Elt Ideal)) (e : Fin 1700000) :
    val_main_v9 (F := Ideal) x1 (ix2 e (0 : Fin 1)) = val_main_v6 (F := Ideal) x1 (ix1 e) := by
  rw [val_main_v9_apply]
  exact congrArg _ (funext fun a => Fin.ext (by match a with | ⟨0, _⟩ => rfl))

theorem v39_col (x1 : (⟨S2x1600000, .i32⟩ : BufTy).Contents (Elt Ideal)) (e : Fin 1700000) :
    val_main_v39 (F := Ideal) x1 (ix2 e (0 : Fin 1)) = val_main_v6 (F := Ideal) x1 (ix1 e) := by
  rw [val_main_v39_apply]
  exact congrArg _ (funext fun a => Fin.ext (by match a with | ⟨0, _⟩ => rfl))

/-- The wrapped source word of edge `e` (first copy). -/
theorem v16_word (x1 : (⟨S2x1600000, .i32⟩ : BufTy).Contents (Elt Ideal)) (e : Fin 1700000) :
    val_main_v16 (F := Ideal) x1 (ix1 e) = Cert.Gcn.wrapWord (val_main_v3 (F := Ideal) x1 (ix1 e)) := by
  rw [val_main_v16_apply, val_main_v13_apply, val_main_v15_apply, val_main_v12_apply, val_main_v14_apply,
    val_main_c_apply, val_main_c_1_apply]
  rfl

theorem v17_word (x1 : (⟨S2x1600000, .i32⟩ : BufTy).Contents (Elt Ideal)) (e : Fin 1700000) :
    val_main_v17 (F := Ideal) x1 (ix2 e (0 : Fin 1)) = Cert.Gcn.wrapWord (val_main_v3 (F := Ideal) x1 (ix1 e)) := by
  rw [val_main_v17_apply]
  exact (congrArg _ (funext fun a => Fin.ext (by match a with | ⟨0, _⟩ => rfl))).trans (v16_word x1 e)

/-! ## The in-degree and its reciprocal square root -/

/-- The flat scatter-add of ones at node `n` is the in-degree of `n`. -/
theorem v10_deg (x1 : (⟨S2x1600000, .i32⟩ : BufTy).Contents (Elt Ideal)) (n : Fin 100000) :
    val_main_v10 (F := Ideal) x1 (ix1 n) = Cert.Gcn.deg (val_main_v6 (F := Ideal) x1) n := by
  unfold val_main_v10
  refine (scatterAdd1_apply Facts₀.scatter_S100000_S1700000x1_S1700000_n_0_0_1_wf _ _ _ n).trans ?_
  have h8 : val_main_v8 (F := Ideal) (ix1 n) = Ideal.ofBits .f32 Cert.Gcn.zeroW := by
    rw [val_main_v8_apply, val_main_cst_0_apply]; rfl
  have hf : (Finset.univ.filter fun e : Fin 1700000 =>
        (val_main_v9 (F := Ideal) x1 (ix2 e (0 : Fin 1))).toInt = (n.val : Int))
      = Cert.Gcn.inEdges (val_main_v6 (F := Ideal) x1) n := by
    unfold Cert.Gcn.inEdges
    exact Finset.filter_congr (fun e _ => by rw [v9_col])
  rw [h8, hf]
  unfold Cert.Gcn.deg
  exact congrArg _ (Finset.sum_congr rfl fun e _ => by rw [val_main_v7_apply, val_main_cst_apply]; rfl)

theorem v11_dinv (x1 : (⟨S2x1600000, .i32⟩ : BufTy).Contents (Elt Ideal)) (n : Fin 100000) :
    val_main_v11 (F := Ideal) x1 (ix1 n) = Cert.Gcn.dinv (val_main_v6 (F := Ideal) x1) n := by
  rw [val_main_v11_apply, v10_deg]
  exact Ideal.hostUnary_rsqrt_def _

/-- The wrapped destination word of edge `e`. -/
theorem v23_word (x1 : (⟨S2x1600000, .i32⟩ : BufTy).Contents (Elt Ideal)) (e : Fin 1700000) :
    val_main_v23 (F := Ideal) x1 (ix1 e) = Cert.Gcn.wrapWord (val_main_v6 (F := Ideal) x1 (ix1 e)) := by
  rw [val_main_v23_apply, val_main_v20_apply, val_main_v22_apply, val_main_v19_apply, val_main_v21_apply,
    val_main_c_2_apply, val_main_c_3_apply]
  rfl

theorem v24_word (x1 : (⟨S2x1600000, .i32⟩ : BufTy).Contents (Elt Ideal)) (e : Fin 1700000) :
    val_main_v24 (F := Ideal) x1 (ix2 e (0 : Fin 1)) = Cert.Gcn.wrapWord (val_main_v6 (F := Ideal) x1 (ix1 e)) := by
  rw [val_main_v24_apply]
  exact (congrArg _ (funext fun a => Fin.ext (by match a with | ⟨0, _⟩ => rfl))).trans (v23_word x1 e)

/-- The wrapped source word of edge `e` (second copy, feeding the row gather). -/
theorem v32_word (x1 : (⟨S2x1600000, .i32⟩ : BufTy).Contents (Elt Ideal)) (e : Fin 1700000) :
    val_main_v32 (F := Ideal) x1 (ix1 e) = Cert.Gcn.wrapWord (val_main_v3 (F := Ideal) x1 (ix1 e)) := by
  rw [val_main_v32_apply, val_main_v29_apply, val_main_v31_apply, val_main_v28_apply, val_main_v30_apply,
    val_main_c_4_apply, val_main_c_5_apply]
  rfl

theorem v33_word (x1 : (⟨S2x1600000, .i32⟩ : BufTy).Contents (Elt Ideal)) (e : Fin 1700000) :
    val_main_v33 (F := Ideal) x1 (ix2 e (0 : Fin 1)) = Cert.Gcn.wrapWord (val_main_v3 (F := Ideal) x1 (ix1 e)) := by
  rw [val_main_v33_apply]
  exact (congrArg _ (funext fun a => Fin.ext (by match a with | ⟨0, _⟩ => rfl))).trans (v32_word x1 e)

/-! ## The two gathers of the normalisation, and the edge weight -/

/-- A start index read signed and clamped into `[0, 100000 - 1]` is the clamped node of the word. -/
theorem clamp_ix (w : BitVec 32) (h : min w.toInt.toNat (100000 - 1) < 100000) :
    (⟨min w.toInt.toNat (100000 - 1), h⟩ : Fin 100000) = Cert.Gcn.clampNode w := rfl

/-- `dinv` gathered at the source node of edge `e`: the start index is the wrapped source word, read signed and
clamped into the node range. -/
theorem v18_src (x1 : (⟨S2x1600000, .i32⟩ : BufTy).Contents (Elt Ideal)) (e : Fin 1700000) :
    val_main_v18 (F := Ideal) x1 (ix1 e)
      = Cert.Gcn.dinv (val_main_v6 (F := Ideal) x1) (Cert.Gcn.nodeOf (val_main_v3 (F := Ideal) x1) e) := by
  unfold val_main_v18
  refine (gather_take1_apply (by decide) Facts₀.gather_S100000_S1700000x1_S1700000_n_0_n_n_0_1_1_wf _ _ e).trans ?_
  rw [clamp_ix, v17_word]
  exact v11_dinv x1 _

/-- `dinv` gathered at the destination node of edge `e`. -/
theorem v25_dst (x1 : (⟨S2x1600000, .i32⟩ : BufTy).Contents (Elt Ideal)) (e : Fin 1700000) :
    val_main_v25 (F := Ideal) x1 (ix1 e)
      = Cert.Gcn.dinv (val_main_v6 (F := Ideal) x1) (Cert.Gcn.nodeOf (val_main_v6 (F := Ideal) x1) e) := by
  unfold val_main_v25
  refine (gather_take1_apply (by decide) Facts₀.gather_S100000_S1700000x1_S1700000_n_0_n_n_0_1_1_wf _ _ e).trans ?_
  rw [clamp_ix, v24_word]
  exact v11_dinv x1 _

/-! ## The linear transform, gathered at the source node and scaled by the edge weight -/

/-- The contraction at `(n, j)` is the sum over `k` of `x(n, k) · W(k, j)`. -/
theorem v27_mm (x0 : (⟨S100000x256, .f32⟩ : BufTy).Contents (Elt Ideal))
    (x2 : (⟨S256x128, .f32⟩ : BufTy).Contents (Elt Ideal)) (n : Fin 100000) (j : Fin 128) :
    val_main_v27 (F := Ideal) x0 x2 (ix2 n j) = Cert.Gcn.mm x0 x2 n j := by
  rw [val_main_v27_apply]
  unfold Cert.Gcn.mm
  refine Finset.sum_congr rfl fun k _ => ?_
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-- Row `e` of the row gather is the transform's row at the source node of edge `e`. -/
theorem v34_rows (x0 : (⟨S100000x256, .f32⟩ : BufTy).Contents (Elt Ideal))
    (x1 : (⟨S2x1600000, .i32⟩ : BufTy).Contents (Elt Ideal))
    (x2 : (⟨S256x128, .f32⟩ : BufTy).Contents (Elt Ideal)) (e : Fin 1700000) (j : Fin 128) :
    val_main_v34 (F := Ideal) x0 x1 x2 (ix2 e j)
      = Cert.Gcn.mm x0 x2 (Cert.Gcn.nodeOf (val_main_v3 (F := Ideal) x1) e) j := by
  unfold val_main_v34
  refine (gather_rows_apply (by decide)
    Facts₀.gather_S100000x128_S1700000x1_S1700000x128_1_0_n_n_0_1_1128_wf _ _ e j).trans ?_
  rw [clamp_ix, v33_word]
  exact v27_mm x0 x2 _ j

/-- The message of edge `e` in channel `j`: the gathered row entry times the edge weight
`dinv (src e) · dinv (dst e)`, the weight being broadcast along the channels. -/
theorem v37_msg (x0 : (⟨S100000x256, .f32⟩ : BufTy).Contents (Elt Ideal))
    (x1 : (⟨S2x1600000, .i32⟩ : BufTy).Contents (Elt Ideal))
    (x2 : (⟨S256x128, .f32⟩ : BufTy).Contents (Elt Ideal)) (e : Fin 1700000) (j : Fin 128) :
    val_main_v37 (F := Ideal) x0 x1 x2 (ix2 e j)
      = Cert.Gcn.mm x0 x2 (Cert.Gcn.nodeOf (val_main_v3 (F := Ideal) x1) e) j
        * (Cert.Gcn.dinv (val_main_v6 (F := Ideal) x1) (Cert.Gcn.nodeOf (val_main_v3 (F := Ideal) x1) e)
          * Cert.Gcn.dinv (val_main_v6 (F := Ideal) x1) (Cert.Gcn.nodeOf (val_main_v6 (F := Ideal) x1) e)) := by
  rw [val_main_v37_apply, v34_rows, val_main_v36_apply, val_main_v35_apply, val_main_v26_apply,
    show idx_main_v35 (idx_main_v36 (ix2 e j)) = ix1 e from
      funext fun a => Fin.ext (by match a with | ⟨0, _⟩ => rfl),
    v18_src, v25_dst, Ideal.mulf_def, Ideal.mulf_def]

/-! ## The aggregation, the bias and the activation -/

/-- The row scatter-add at `(n, j)`: zero plus the messages of the edges into `n`. -/
theorem v40_agg (x0 : (⟨S100000x256, .f32⟩ : BufTy).Contents (Elt Ideal))
    (x1 : (⟨S2x1600000, .i32⟩ : BufTy).Contents (Elt Ideal))
    (x2 : (⟨S256x128, .f32⟩ : BufTy).Contents (Elt Ideal)) (n : Fin 100000) (j : Fin 128) :
    val_main_v40 (F := Ideal) x0 x1 x2 (ix2 n j)
      = Ideal.ofBits .f32 Cert.Gcn.zeroW
        + ∑ e ∈ Cert.Gcn.inEdges (val_main_v6 (F := Ideal) x1) n,
            Cert.Gcn.mm x0 x2 (Cert.Gcn.nodeOf (val_main_v3 (F := Ideal) x1) e) j
              * (Cert.Gcn.dinv (val_main_v6 (F := Ideal) x1) (Cert.Gcn.nodeOf (val_main_v3 (F := Ideal) x1) e)
                * Cert.Gcn.dinv (val_main_v6 (F := Ideal) x1) (Cert.Gcn.nodeOf (val_main_v6 (F := Ideal) x1) e)) := by
  unfold val_main_v40
  refine (scatterAddRows_apply Facts₀.scatter_S100000x128_S1700000x1_S1700000x128_1_0_0_1_wf _ _ _ n j).trans ?_
  have h38 : val_main_v38 (F := Ideal) (ix2 n j) = Ideal.ofBits .f32 Cert.Gcn.zeroW := by
    rw [val_main_v38_apply, val_main_cst_6_apply]; rfl
  have hf : (Finset.univ.filter fun e : Fin 1700000 =>
        (val_main_v39 (F := Ideal) x1 (ix2 e (0 : Fin 1))).toInt = (n.val : Int))
      = Cert.Gcn.inEdges (val_main_v6 (F := Ideal) x1) n := by
    unfold Cert.Gcn.inEdges
    exact Finset.filter_congr (fun e _ => by rw [v39_col])
  rw [h38, hf]
  exact congrArg _ (Finset.sum_congr rfl fun e _ => v37_msg x0 x1 x2 e j)

/-- The reference's result is the layer in its second arrangement, over the program's own edge arrays. -/
theorem result_eq (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 : (⟨S128, .f32⟩ : BufTy).Contents (Elt Ideal)) :
    val_main_v49 (F := Ideal) x0 x1 x2 x3 x4
      = Cert.Gcn.outR x0 x2 x3 x4 (val_main_v3 (F := Ideal) x1) (val_main_v6 (F := Ideal) x1) := by
  funext i
  obtain ⟨n, j, rfl⟩ : ∃ (n : Fin 100000) (j : Fin 128), i = ix2 n j := ⟨i 0, i 1, eq_ix2 i⟩
  rw [Cert.Gcn.outR_apply]
  have h43 : val_main_v43 (F := Ideal) x0 x1 x2 x3 (ix2 n j)
      = Cert.Gcn.preR x0 x2 x3 (val_main_v3 (F := Ideal) x1) (val_main_v6 (F := Ideal) x1) n j := by
    rw [val_main_v43_apply, v40_agg, val_main_v42_apply, val_main_v41_apply, Ideal.addf_def]
    unfold Cert.Gcn.preR
    exact congrArg _ (congrArg x3 (funext fun a => Fin.ext (by match a with | ⟨0, _⟩ => rfl)))
  have h44 : val_main_v44 (F := Ideal) (ix2 n j) = Ideal.ofBits .f32 Cert.Gcn.zeroW := by
    rw [val_main_v44_apply, val_main_cst_7_apply]; rfl
  have h47 : val_main_v47 (F := Ideal) x4 (ix2 n j) = x4 (ix1 j) := by
    rw [val_main_v47_apply, val_main_v46_apply]
    exact congrArg x4 (funext fun a => Fin.ext (by match a with | ⟨0, _⟩ => rfl))
  rw [val_main_v49_apply, val_main_v45_apply, val_main_v48_apply, h43, h44, h47, Ideal.mulf_def]
  rfl

end Cert.ReferenceIdeal.RefValue
end
-- ==== Proof.LibGnnLaws.lean ====
import Idealize.ShloMosaic.PureOps.Ideal
import Idealize.ShloMosaic.PureOps.Ideal.Laws

/-!
# Laws of a message-passing layer over the extended reals

A graph network's layer can be arranged in two ways. One arrangement computes, per EDGE, the affine image of the
edge's hidden message and then sums the images at the edge's destination node. The other sums the hidden messages
at the node first and applies the affine map once, the bias weighted by the node's in-degree. Over the reals the
two agree by linearity; over the extended reals (where a float is a real number or an infinity, and
distributivity fails at the infinities) they agree when the entries are real numbers. This module states that law
and the smaller ones around it, over abstract finite index types:

* `IsReal` — "is the coercion of a real number" — and its closure under sums, products, `relu`, finite sums;
* `coe_sum` — the coercion of a finite sum of reals is the sum of the coercions;
* `sum_edges_affine` — the aggregation law above, for any finite set of edges (and for the set of edges into a
  node, with the in-degree as a sum of indicator values);
* `sum_fin_add_split` — a contraction over `m + n` indices is the contraction over the first `m` plus the one
  over the last `n` (no finiteness: associativity and commutativity only);
* `onehot_select` — a one-hot row times a table column selects the table's entry (no finiteness either: zero
  times anything is zero in Mathlib's extended reals);
* `mul_inv_eq_div` — multiplying by the reciprocal of a nonzero real is the ideal division by it, at the
  infinities too;
* the extended reals the float words `0.0`, `1.0` and `50000.0` denote.
-/

noncomputable section

open scoped BigOperators

namespace Cert.Lib.GnnLaws

open Idealize.ShloMosaic

/-! ## Real entries -/

/-- An extended real that is (the coercion of) a real number. -/
def IsReal (x : EReal) : Prop := ∃ r : ℝ, x = (r : EReal)

/-- A coerced real is real. -/
theorem IsReal.coe (r : ℝ) : IsReal (r : EReal) := ⟨r, rfl⟩

/-- Zero is real. -/
theorem IsReal.zero : IsReal 0 := ⟨0, rfl⟩

/-- One is real. -/
theorem IsReal.one : IsReal 1 := ⟨1, rfl⟩

/-- A real entry is neither infinity. -/
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x :=
  ⟨x.toReal, (EReal.coe_toReal ht hb).symm⟩

/-- The sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two real entries is real. -/
theorem isReal_max {x y : EReal} (hx : IsReal x) (hy : IsReal y) : IsReal (max x y) := by
  rcases max_choice x y with h | h <;> rw [h] <;> assumption

/-- `relu` of a real entry is real. -/
theorem IsReal.relu {x : EReal} (hx : IsReal x) : IsReal (max x 0) := isReal_max hx IsReal.zero

/-- `relu` of a coerced real is the coerced `relu`. -/
theorem relu_coe (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of real entries is real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A contraction of real entries is real. -/
theorem IsReal.dot {κ : Type*} [Fintype κ] (x w : κ → EReal) (hx : ∀ k, IsReal (x k)) (hw : ∀ k, IsReal (w k)) :
    IsReal (∑ k, x k * w k) :=
  IsReal.sum _ _ fun k _ => (hx k).mul (hw k)

/-- The ideal division of a real entry by a nonzero real is real. -/
theorem IsReal.div_coe {s : EReal} (hs : IsReal s) {y : ℝ} (hy : y ≠ 0) : IsReal (Ideal.div s (y : EReal)) := by
  rw [Ideal.div_coe hy]; exact hs.mul (IsReal.coe _)

/-- A family of real entries is the coercion of a family of reals. -/
theorem exists_real_fun {ι : Type*} (f : ι → EReal) (h : ∀ i, IsReal (f i)) : ∃ g : ι → ℝ, ∀ i, f i = (g i : EReal) :=
  ⟨fun i => (h i).choose, fun i => (h i).choose_spec⟩

/-- The same for a family over two indices. -/
theorem exists_real_fun₂ {ι κ : Type*} (f : ι → κ → EReal) (h : ∀ i k, IsReal (f i k)) :
    ∃ g : ι → κ → ℝ, ∀ i k, f i k = (g i k : EReal) :=
  ⟨fun i k => (h i k).choose, fun i k => (h i k).choose_spec⟩

/-! ## The aggregation law -/

section Aggregation

variable {E K : Type*} [Fintype K]

/-- THE AGGREGATION LAW, over reals: summing over a finite set of edges the affine image `r e · w + b` of each
    edge's hidden message is the affine image of the summed messages, the bias weighted by the number of edges. -/
theorem sum_edges_affine (S : Finset E) (r : E → K → ℝ) (w : K → ℝ) (b : ℝ) :
    ∑ e ∈ S, ((∑ k, (r e k : EReal) * (w k : EReal)) + (b : EReal))
      = (∑ k, (∑ e ∈ S, (r e k : EReal)) * (w k : EReal)) + ((S.card : ℝ) : EReal) * (b : EReal) := by
  have hreal : ∑ e ∈ S, ((∑ k, r e k * w k) + b) = (∑ k, (∑ e ∈ S, r e k) * w k) + (S.card : ℝ) * b := by
    rw [Finset.sum_add_distrib, Finset.sum_comm, Finset.sum_const, nsmul_eq_mul]
    congr 1
    exact Finset.sum_congr rfl fun k _ => (Finset.sum_mul S (fun e => r e k) (w k)).symm
  simp only [← EReal.coe_mul, ← coe_sum, ← EReal.coe_add]
  exact congrArg _ hreal

/-- The aggregation law for extended reals with real entries. -/
theorem sum_edges_affine_of_isReal (S : Finset E) (r : E → K → EReal) (w : K → EReal) (b : EReal)
    (hr : ∀ e k, IsReal (r e k)) (hw : ∀ k, IsReal (w k)) (hb : IsReal b) :
    ∑ e ∈ S, ((∑ k, r e k * w k) + b) = (∑ k, (∑ e ∈ S, r e k) * w k) + ((S.card : ℝ) : EReal) * b := by
  obtain ⟨r', hr'⟩ := exists_real_fun₂ r hr
  obtain ⟨w', hw'⟩ := exists_real_fun w hw
  obtain ⟨b', rfl⟩ := hb
  simp only [hr', hw']
  exact sum_edges_affine S r' w' b'

/-- The number of members of a filtered finite set, as the extended-real sum of the indicator values: a node's
    in-degree as a scatter-add of ones computes it. -/
theorem card_filter_eq_sum_ite {E : Type*} (S : Finset E) (p : E → Prop) [DecidablePred p] :
    (((S.filter p).card : ℝ) : EReal) = ∑ e ∈ S, (if p e then (1 : EReal) else 0) := by
  have h : (((S.filter p).card : ℝ)) = ∑ e ∈ S, (if p e then (1 : ℝ) else 0) := by
    rw [Finset.card_filter]; push_cast; rfl
  rw [h, coe_sum]
  exact Finset.sum_congr rfl fun e _ => by split <;> rfl

/-- The aggregation law at a node: over the edges whose destination is the node, the bias weighted by the in-degree
    written as the sum of indicator values over all edges. -/
theorem sum_into_node_affine {E N : Type*} [Fintype E] [DecidableEq N] (dst : E → N) (n : N)
    (r : E → K → EReal) (w : K → EReal) (b : EReal)
    (hr : ∀ e k, IsReal (r e k)) (hw : ∀ k, IsReal (w k)) (hb : IsReal b) :
    ∑ e ∈ Finset.univ.filter (fun e => dst e = n), ((∑ k, r e k * w k) + b)
      = (∑ k, (∑ e ∈ Finset.univ.filter (fun e => dst e = n), r e k) * w k)
        + (∑ e, (if dst e = n then (1 : EReal) else 0)) * b := by
  rw [sum_edges_affine_of_isReal _ r w b hr hw hb, card_filter_eq_sum_ite]

end Aggregation

/-! ## A contraction split in two -/

/-- A sum over `m + n` indices is the sum over the first `m` plus the sum over the last `n`. -/
theorem sum_fin_add_split {m n : Nat} (f : Fin (m + n) → EReal) :
    ∑ k, f k = (∑ k : Fin m, f (Fin.castAdd n k)) + ∑ k : Fin n, f (Fin.natAdd m k) :=
  Fin.sum_univ_add f

/-- A contraction over 128 indices is the contraction over the first 64 plus the one over the last 64: a
    concatenated pair of 64-wide rows against a 128-row matrix is the first row against the top half plus the
    second row against the bottom half. -/
theorem sum_fin128_split (x w : Fin 128 → EReal) :
    ∑ k, x k * w k
      = (∑ k : Fin 64, x (Fin.castAdd 64 k) * w (Fin.castAdd 64 k))
        + ∑ k : Fin 64, x (Fin.natAdd 64 k) * w (Fin.natAdd 64 k) :=
  sum_fin_add_split (m := 64) (n := 64) fun k => x k * w k

/-- Regrouping a bias: `A + (B + c) = (A + B) + c`. -/
theorem add_regroup (A B c : EReal) : A + (B + c) = (A + B) + c := (add_assoc A B c).symm

/-! ## One-hot selection -/

/-- A one-hot row times a column selects the column's entry at the hot index. -/
theorem onehot_select {V : Type*} [Fintype V] [DecidableEq V] (emb : V → EReal) (x : V) :
    ∑ v, (if x = v then (1 : EReal) else 0) * emb v = emb x := by
  rw [Finset.sum_eq_single x]
  · rw [if_pos rfl, one_mul]
  · intro v _ hv
    rw [if_neg (fun h => hv h.symm), zero_mul]
  · intro h; exact absurd (Finset.mem_univ x) h

/-- The same with the comparison written the other way round. -/
theorem onehot_select' {V : Type*} [Fintype V] [DecidableEq V] (emb : V → EReal) (x : V) :
    ∑ v, (if v = x then (1 : EReal) else 0) * emb v = emb x := by
  rw [← onehot_select emb x]
  exact Finset.sum_congr rfl fun v _ => by simp only [eq_comm]

/-! ## The mean -/

/-- Multiplying by the reciprocal of a nonzero real is the ideal division by it, at the infinities too. -/
theorem mul_inv_eq_div {y : ℝ} (h : y ≠ 0) (s : EReal) : s * ((1 / y : ℝ) : EReal) = Ideal.div s (y : EReal) :=
  (Ideal.div_coe h s).symm

/-- A sum over 50000 nodes times `1 / 50000` is the sum divided by 50000. -/
theorem mul_inv_50000 (s : EReal) : s * ((1 / 50000 : ℝ) : EReal) = Ideal.div s ((50000 : ℝ) : EReal) :=
  mul_inv_eq_div (by norm_num) s

/-! ## The float words of this network -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `50000.0` denotes the real `50000`. -/
theorem ofBits_50000 : Ideal.ofBits .f32 0x47435000#32 = ((50000 : ℝ) : EReal) := by
  simp [Ideal.ofBits, Ideal.ieee, -EReal.coe_mul]; norm_num

end Cert.Lib.GnnLaws

end
-- ==== Proof.GcnLaw.lean ====
/-
  The two arrangements of the graph-convolution layer agree on the extended reals.

  Fix a node `n` and the set `S` of edges flowing into it. In the first arrangement the messages `h e · dr e` are summed
  over `S` and the sum is multiplied by `d = dinv n`; in the second every message is multiplied by `dr e · dc e`, where
  `dc e` is `dinv` at the destination of `e`. Three facts join them.
  * For `e ∈ S` the destination word of `e`, read signed, is `n`: it is non-negative, so wrapping leaves it, and it is
    below the node count, so clamping leaves it: `dc e = d`.
  * The in-degree of `n` is the number of elements of `S` (a sum of ones from zero). When `S` is not empty this is a
    positive real, and its reciprocal square root `d` is a non-negative real.
  * Multiplication by a non-negative real distributes over any finite sum of extended reals (the infinities included),
    and multiplication of extended reals is associative. When `S` is empty both sums are zero and `0 · d = 0`.
  No finiteness of the inputs is used.
-/
import proofs.«130555_j6313601925376_2_alg».proof.Proof.Spec
import proofs.«130555_j6313601925376_2_alg».proof.Proof.LibGnnLaws

noncomputable section

open scoped BigOperators

namespace Cert.Gcn

open Idealize.ShloMosaic Idealize.ShloMosaic.ValueIdx

/-- Multiplication by a non-negative real distributes over a finite sum of extended reals. -/
theorem sum_mul_of_nonneg {ι : Type*} (S : Finset ι) (a : ι → EReal) {d : EReal} (h0 : 0 ≤ d) (ht : d ≠ ⊤) :
    (∑ e ∈ S, a e) * d = ∑ e ∈ S, a e * d := by
  classical
  induction S using Finset.induction_on with
  | empty => simp
  | insert x s hx ih =>
    rw [Finset.sum_insert hx, Finset.sum_insert hx, EReal.right_distrib_of_nonneg_of_ne_top h0 ht, ih]

/-- The in-degree of `n` is the number of edges into `n`. -/
theorem deg_eq_card (col : IVec ⟨1, ![1700000]⟩ 32) (n : Fin 100000) :
    deg col n = (((inEdges col n).card : ℝ) : EReal) := by
  unfold deg
  rw [show Ideal.ofBits .f32 zeroW = 0 from Cert.Lib.GnnLaws.ofBits_zero,
    show Ideal.ofBits .f32 oneW = 1 from Cert.Lib.GnnLaws.ofBits_one, zero_add, Finset.sum_const,
    EReal.nsmul_eq_mul, mul_one]
  rfl

/-- When some edge flows into `n`, `dinv n` is a non-negative real. -/
theorem dinv_of_nonempty (col : IVec ⟨1, ![1700000]⟩ 32) (n : Fin 100000) (h : (inEdges col n).Nonempty) :
    0 ≤ dinv col n ∧ dinv col n ≠ ⊤ := by
  have hpos : (0 : ℝ) < ((inEdges col n).card : ℝ) := by exact_mod_cast Finset.card_pos.mpr h
  have hd : dinv col n = (((Real.sqrt ((inEdges col n).card : ℝ))⁻¹ : ℝ) : EReal) := by
    unfold dinv
    rw [deg_eq_card]
    show (if ((inEdges col n).card : ℝ) < 0 then (⊥ : EReal) else if ((inEdges col n).card : ℝ) = 0 then ⊤
      else (((Real.sqrt ((inEdges col n).card : ℝ))⁻¹ : ℝ) : EReal)) = _
    rw [if_neg (not_lt.mpr hpos.le), if_neg hpos.ne']
  rw [hd]
  exact ⟨EReal.coe_nonneg.mpr (inv_nonneg.mpr (Real.sqrt_nonneg _)), EReal.coe_ne_top _⟩

/-- A word that reads, signed, as a node is left alone by the wrap and by the clamp. -/
theorem clamp_wrap_of_toInt (w : BitVec 32) (n : Fin 100000) (h : w.toInt = (n.val : Int)) :
    clampNode (wrapWord w) = n := by
  have hs : w.slt 0#32 = false := by
    rw [BitVec.slt_eq_decide, BitVec.toInt_zero, h]
    exact decide_eq_false (by omega)
  have hw : wrapWord w = w := by
    unfold wrapWord IntOp.cmpi
    simp only [hs]
    rfl
  rw [hw]
  unfold clampNode
  refine Fin.ext ?_
  show min w.toInt.toNat (100000 - 1) = n.val
  rw [h]
  have := n.isLt
  omega

/-- The destination of an edge into `n` is `n`. -/
theorem nodeOf_of_mem (col : IVec ⟨1, ![1700000]⟩ 32) (n : Fin 100000) (e : Fin 1700000) (he : e ∈ inEdges col n) :
    nodeOf col e = n :=
  clamp_wrap_of_toInt _ n (Finset.mem_filter.mp he).2

/-- THE LAW: the two arrangements have the same value before the activation. -/
theorem preK_eq_preR (x : (⟨2, ![100000, 256]⟩ : Shape).Idx → EReal) (W : (⟨2, ![256, 128]⟩ : Shape).Idx → EReal)
    (b : (⟨1, ![128]⟩ : Shape).Idx → EReal) (row col : IVec ⟨1, ![1700000]⟩ 32) (n : Fin 100000) (j : Fin 128) :
    preK x W b row col n j = preR x W b row col n j := by
  unfold preK preR
  refine congrArg (· + b (ix1 j)) ?_
  rw [show Ideal.ofBits .f32 zeroW = 0 from Cert.Lib.GnnLaws.ofBits_zero, zero_add, zero_add]
  have hR : ∑ e ∈ inEdges col n, mm x W (nodeOf row e) j * (dinv col (nodeOf row e) * dinv col (nodeOf col e))
      = ∑ e ∈ inEdges col n, mm x W (nodeOf row e) j * dinv col (nodeOf row e) * dinv col n :=
    Finset.sum_congr rfl fun e he => by rw [nodeOf_of_mem col n e he, mul_assoc]
  rw [hR]
  rcases (inEdges col n).eq_empty_or_nonempty with h | h
  · rw [h, Finset.sum_empty, Finset.sum_empty, zero_mul]
  · obtain ⟨h0, ht⟩ := dinv_of_nonempty col n h
    exact sum_mul_of_nonneg _ _ h0 ht

/-- The layer's two arrangements are one array. -/
theorem outK_eq_outR (x : (⟨2, ![100000, 256]⟩ : Shape).Idx → EReal) (W : (⟨2, ![256, 128]⟩ : Shape).Idx → EReal)
    (b alpha : (⟨1, ![128]⟩ : Shape).Idx → EReal) (row col : IVec ⟨1, ![1700000]⟩ 32) :
    outK x W b alpha row col = outR x W b alpha row col := by
  funext i
  obtain ⟨n, j, rfl⟩ : ∃ (n : Fin 100000) (j : Fin 128), i = ix2 n j := ⟨i 0, i 1, eq_ix2 i⟩
  rw [outK_apply, outR_apply, preK_eq_preR]

end Cert.Gcn

end
-- ==== Proof.lean ====
/-
  A graph-convolution layer with symmetric degree normalisation and a parametric rectifier: a kernel program in two
  grids of kernel calls among host operations, against a host reference.

  Both programs build, from the edge array, the source and destination words of the edges followed by one self loop
  per node, the in-degree of every node and its reciprocal square root `dinv`. The kernel program's first grid computes
  the linear transform `x·W` block of rows by block of rows and scales row `n` by `dinv n`; the host gathers these rows
  at the edges' sources and sums them into the edges' destinations; the second grid scales row `n` of the sum by
  `dinv n`, adds the bias and applies the rectifier. The reference scales every gathered row of `x·W` by the edge weight
  `dinv (source) · dinv (destination)` before summing, then adds the bias and applies the rectifier.

  At the ideal values the kernel program's result is the layer in the first arrangement (`Cert.Gcn.outK`: the two grids
  read block by block, the host operations between them read at an index) and the reference's is the layer in the
  second (`Cert.Gcn.outR`: its operations read one at a time). The two arrangements are one array
  (`Cert.Gcn.outK_eq_outR`): for an edge into `n` the destination is `n`, and `dinv n` is a non-negative real whenever
  an edge flows into `n`, so that multiplying by it distributes over the sum — at infinite entries too, hence the
  finiteness of the inputs is not used. Both programs compute the edge words by the same operations of the edge array.
  The rounding of the matrix product's operands to a narrower format is the identity at the ideal values, and the
  ideal pass rewrote nothing, so that `preserves` is trivial. The frames of the two kernel programs are the generated
  ones; the reference's frame is its generated run with the result dropped.
-/
import proofs.«130555_j6313601925376_2_alg».proof.Defs
import proofs.«130555_j6313601925376_2_alg».proof.Proof.Gen.Kernel
import proofs.«130555_j6313601925376_2_alg».proof.Proof.Gen.Kernel.Skeleton
import proofs.«130555_j6313601925376_2_alg».proof.Proof.Gen.Kernel.Launch
import proofs.«130555_j6313601925376_2_alg».proof.Proof.Gen.Kernel.Points
import proofs.«130555_j6313601925376_2_alg».proof.Proof.Gen.Kernel.Frame
import proofs.«130555_j6313601925376_2_alg».proof.Proof.Gen.KernelIdeal
import proofs.«130555_j6313601925376_2_alg».proof.Proof.Gen.KernelIdeal.Skeleton
import proofs.«130555_j6313601925376_2_alg».proof.Proof.Gen.KernelIdeal.Launch
import proofs.«130555_j6313601925376_2_alg».proof.Proof.Gen.KernelIdeal.Points
import proofs.«130555_j6313601925376_2_alg».proof.Proof.Gen.KernelIdeal.Frame
import proofs.«130555_j6313601925376_2_alg».proof.Proof.Gen.ReferenceIdeal
import proofs.«130555_j6313601925376_2_alg».proof.Proof.Gen.ReferenceIdeal.Run
import proofs.«130555_j6313601925376_2_alg».proof.Proof.Gen.ReferenceIdeal.Read
import proofs.«130555_j6313601925376_2_alg».proof.Proof.Gen.Pre_finite_inputs
import proofs.«130555_j6313601925376_2_alg».proof.Proof.KRun
import proofs.«130555_j6313601925376_2_alg».proof.Proof.KValue
import proofs.«130555_j6313601925376_2_alg».proof.Proof.RValue
import proofs.«130555_j6313601925376_2_alg».proof.Proof.GcnLaw
import Idealize.ShloMosaic.Adequacy
import Idealize.ShloMosaic.Init

noncomputable section

namespace Cert.Proof

open Idealize.ShloMosaic Idealize.ShloMosaic.TcCoe Idealize.SL.Sem

/-- The kernel program as printed runs, its arguments unchanged. -/
theorem frame_kernel : Cert.frame_Kernel := fun m ρ _ => Cert.Kernel.Gen.frame m ρ

/-- The idealized kernel program runs, its arguments unchanged. -/
theorem frame_kernelIdeal : Cert.frame_KernelIdeal := fun m ρ _ => Cert.KernelIdeal.Gen.frame m ρ

/-- The idealized reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The idealized kernel program's run with its result named: the layer in its first arrangement. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v26)
          = Cert.Gcn.outK (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (Cert.KernelIdeal.KHost.rowW (m ((c.tc : Thread Cert.KernelIdeal.nD Cert.KernelIdeal.τ).loc Cert.KernelIdeal.main_arg1)))
              (Cert.KernelIdeal.KHost.colW (m ((c.tc : Thread Cert.KernelIdeal.nD Cert.KernelIdeal.τ).loc Cert.KernelIdeal.main_arg1)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans (Cert.KernelIdeal.KValue.value m ρ c), (h c).2⟩)
    (Cert.KernelIdeal.KRun.run_value (F := Ideal) m ρ)

/-- Both programs compute the source words by the same operations of the edge array. -/
theorem rowW_eq (x1 : (⟨Cert.KernelIdeal.S2x1600000, .i32⟩ : BufTy).Contents (Elt Ideal)) :
    Cert.ReferenceIdeal.Read.val_main_v3 (F := Ideal) x1 = Cert.KernelIdeal.KHost.rowW x1 := rfl

/-- Both programs compute the destination words by the same operations of the edge array. -/
theorem colW_eq (x1 : (⟨Cert.KernelIdeal.S2x1600000, .i32⟩ : BufTy).Contents (Elt Ideal)) :
    Cert.ReferenceIdeal.Read.val_main_v6 (F := Ideal) x1 = Cert.KernelIdeal.KHost.colW x1 := rfl

/-- At the ideal values the two programs, run from memories that agree on the arguments, end with equal results: the
    kernel program's is the layer in its first arrangement, the reference's the layer in its second, and the two
    arrangements are one array. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq,
    (hagree c).1, (hagree c).2.1, (hagree c).2.2.1, (hagree c).2.2.2.1, (hagree c).2.2.2.2, rowW_eq, colW_eq]
  exact (Cert.Gcn.outK_eq_outR _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
